-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256 : Shape := ⟨2, ![64, 256]⟩
abbrev S50000x512 : Shape := ⟨2, ![50000, 512]⟩
abbrev S1024x1024 : Shape := ⟨2, ![1024, 1024]⟩
abbrev S1024 : Shape := ⟨1, ![1024]⟩
abbrev S50x1024 : Shape := ⟨2, ![50, 1024]⟩
abbrev S50 : Shape := ⟨1, ![50]⟩
abbrev S2x50 : Shape := ⟨2, ![2, 50]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S50x1024 : S_.BroadcastsInDim S50x1024 (![] : Fin 0 → Fin S50x1024.rank)
  reducesTo_S50x1024_S_d0_1 : S50x1024.ReducesTo [0, 1] S_
  bcast_S_S50 : S_.BroadcastsInDim S50 (![] : Fin 0 → Fin S50.rank)
  reducesTo_S50_S_d0 : S50.ReducesTo [0] S_
  bcast_S_S2x50 : S_.BroadcastsInDim S2x50 (![] : Fin 0 → Fin S2x50.rank)
  reducesTo_S2x50_S_d0_1 : S2x50.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S50 .f32) (main_arg6 : FVec F S2x50 .f32) (main_arg7 : FVec F S2 .f32) (main_v13 : IVec S_ 1) (main_v16 : IVec S50x1024 1) : IVec S_ 1 :=
  let main_c_5 : IVec S_ 1 := constantI S_ 1 1#1
  let main_v17 : IVec S_ 1 := (fun x v => Host.reduce IntOp.andi x v reducesTo_S50x1024_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S2x50 .f32 := Host.absf main_arg6
  let main_cst_8 : FVec F S_ .f32 := constant S_ .f32 0x7F800000#32
  let main_v25 : FVec F S2x50 .f32 := broadcastInDim S2x50 ![] bcast_S_S2x50 main_cst_8
  let main_v26 : IVec S2x50 1 := cmpf .olt main_v24 main_v25
  let main_c_9 : IVec S_ 1 := constantI S_ 1 1#1
  let main_v27 : IVec S_ 1 := (fun x v => Host.reduce IntOp.andi x v reducesTo_S2x50_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S64x256 32) (main_arg1 : FVec F S50000x512 .f32) (main_arg2 : FVec F S1024x1024 .f32) (main_arg3 : FVec F S1024 .f32) (main_arg4 : FVec F S50x1024 .f32) (main_arg5 : FVec F S50 .f32) (main_arg6 : FVec F S2x50 .f32) (main_arg7 : FVec F S2 .f32) : IVec S_ 1 :=
  let main_v0 : FVec F S50000x512 .f32 := Host.absf main_arg1
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S50x1024 .f32 := Host.absf main_arg4
  let main_cst_4 : FVec F S_ .f32 := constant S_ .f32 0x7F800000#32
  let main_v15 : FVec F S50x1024 .f32 := broadcastInDim S50x1024 ![] bcast_S_S50x1024 main_cst_4
  let main_v16 : IVec S50x1024 1 := cmpf .olt main_v14 main_v15
  fn_part1 (F := F) main_arg5 main_arg6 main_arg7 main_v13 main_v16
-- ==== Kernel.lean ====
abbrev S64x256 : Shape := ⟨2, ![64, 256]⟩
abbrev S50000x512 : Shape := ⟨2, ![50000, 512]⟩
abbrev S1024x1024 : Shape := ⟨2, ![1024, 1024]⟩
abbrev S1024 : Shape := ⟨1, ![1024]⟩
abbrev S50x1024 : Shape := ⟨2, ![50, 1024]⟩
abbrev S50 : Shape := ⟨1, ![50]⟩
abbrev S2x50 : Shape := ⟨2, ![2, 50]⟩
abbrev S2 : Shape := ⟨1, ![2]⟩
abbrev S_ : Shape := ⟨0, ![]⟩
abbrev S64x256x1 : Shape := ⟨3, ![64, 256, 1]⟩
abbrev S64x256x512 : Shape := ⟨3, ![64, 256, 512]⟩
abbrev S16384x512 : Shape := ⟨2, ![16384, 512]⟩
abbrev S1024x512 : Shape := ⟨2, ![1024, 512]⟩
abbrev S512x1024 : Shape := ⟨2, ![512, 1024]⟩
abbrev S1x1024 : Shape := ⟨2, ![1, 1024]⟩
abbrev S64x1024 : Shape := ⟨2, ![64, 1024]⟩
abbrev S2048x512 : Shape := ⟨2, ![2048, 512]⟩
abbrev S8x1024 : Shape := ⟨2, ![8, 1024]⟩
abbrev S2048x1024 : Shape := ⟨2, ![2048, 1024]⟩
abbrev S8x256x1024 : Shape := ⟨3, ![8, 256, 1024]⟩
abbrev S8x255x1024 : Shape := ⟨3, ![8, 255, 1024]⟩
abbrev S64x50 : Shape := ⟨2, ![64, 50]⟩
abbrev S1x50 : Shape := ⟨2, ![1, 50]⟩
abbrev S64x2 : Shape := ⟨2, ![64, 2]⟩
abbrev S1x2 : Shape := ⟨2, ![1, 2]⟩
abbrev S64 : Shape := ⟨1, ![64]⟩
abbrev S64x1 : Shape := ⟨2, ![64, 1]⟩

abbrev nBuf : Space → Nat
  | .hbm => 50
  | .vmem => 7
  | .smem => 0
  | _ => 0

abbrev bufTy : (tb : Table) → Fin (tcTables nBuf tb) → BufTy
  | .hbm, ⟨0, _⟩ => ⟨S64x256, .i32⟩
  | .hbm, ⟨1, _⟩ => ⟨S50000x512, .f32⟩
  | .hbm, ⟨2, _⟩ => ⟨S1024x1024, .f32⟩
  | .hbm, ⟨3, _⟩ => ⟨S1024, .f32⟩
  | .hbm, ⟨4, _⟩ => ⟨S50x1024, .f32⟩
  | .hbm, ⟨5, _⟩ => ⟨S50, .f32⟩
  | .hbm, ⟨6, _⟩ => ⟨S2x50, .f32⟩
  | .hbm, ⟨7, _⟩ => ⟨S2, .f32⟩
  | .hbm, ⟨8, _⟩ => ⟨S_, .i32⟩
  | .hbm, ⟨9, _⟩ => ⟨S64x256, .i32⟩
  | .hbm, ⟨10, _⟩ => ⟨S64x256, .i1⟩
  | .hbm, ⟨11, _⟩ => ⟨S_, .i32⟩
  | .hbm, ⟨12, _⟩ => ⟨S64x256, .i32⟩
  | .hbm, ⟨13, _⟩ => ⟨S64x256, .i32⟩
  | .hbm, ⟨14, _⟩ => ⟨S64x256, .i32⟩
  | .hbm, ⟨15, _⟩ => ⟨S64x256x1, .i32⟩
  | .hbm, ⟨16, _⟩ => ⟨S64x256x512, .f32⟩
  | .hbm, ⟨17, _⟩ => ⟨S64x256x512, .bf16⟩
  | .hbm, ⟨18, _⟩ => ⟨S16384x512, .bf16⟩
  | .hbm, ⟨19, _⟩ => ⟨S1024x512, .f32⟩
  | .hbm, ⟨20, _⟩ => ⟨S512x1024, .f32⟩
  | .hbm, ⟨21, _⟩ => ⟨S512x1024, .bf16⟩
  | .hbm, ⟨22, _⟩ => ⟨S1024x512, .f32⟩
  | .hbm, ⟨23, _⟩ => ⟨S512x1024, .f32⟩
  | .hbm, ⟨24, _⟩ => ⟨S512x1024, .bf16⟩
  | .hbm, ⟨25, _⟩ => ⟨S1x1024, .f32⟩
  | .hbm, ⟨26, _⟩ => ⟨S64x1024, .f32⟩
  | .hbm, ⟨27, _⟩ => ⟨S64x50, .f32⟩
  | .hbm, ⟨28, _⟩ => ⟨S1x50, .f32⟩
  | .hbm, ⟨29, _⟩ => ⟨S64x50, .f32⟩
  | .hbm, ⟨30, _⟩ => ⟨S64x50, .f32⟩
  | .hbm, ⟨31, _⟩ => ⟨S64x2, .f32⟩
  | .hbm, ⟨32, _⟩ => ⟨S1x2, .f32⟩
  | .hbm, ⟨33, _⟩ => ⟨S64x2, .f32⟩
  | .hbm, ⟨34, _⟩ => ⟨S64x2, .f32⟩
  | .hbm, ⟨35, _⟩ => ⟨S_, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x2, .f32⟩
  | .hbm, ⟨42, _⟩ => ⟨S64x2, .f32⟩
  | .hbm, ⟨43, _⟩ => ⟨S64x2, .f32⟩
  | .hbm, ⟨44, _⟩ => ⟨S_, .f32⟩
  | .hbm, ⟨45, _⟩ => ⟨S64, .f32⟩
  | .hbm, ⟨46, _⟩ => ⟨S64x1, .f32⟩
  | .hbm, ⟨47, _⟩ => ⟨S64x1, .f32⟩
  | .hbm, ⟨48, _⟩ => ⟨S64x2, .f32⟩
  | .hbm, ⟨49, _⟩ => ⟨S64x2, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_cst_1 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_v25 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bitsLt_bf16_f32 : FTy.bits .bf16 < FTy.bits .f32
  shapeCasts_S64x256x512_S16384x512 : S64x256x512.ShapeCasts S16384x512
  slices_S1024x1024_S1024x512_0_0 : S1024x1024.Slices ![0, 0] S1024x512
  transposes_S1024x512_S512x1024_1_0 : S1024x512.Transposes [1, 0] S512x1024
  slices_S1024x1024_S1024x512_0_512 : S1024x1024.Slices ![0, 512] S1024x512
  shapeCasts_S1024_S1x1024 : S1024.ShapeCasts S1x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S2048x1024_S8x256x1024 : S2048x1024.ShapeCasts S8x256x1024
  slices_S8x256x1024_o0_0_0_S8x255x1024 : S8x256x1024.Slices ![0, 0, 0] S8x255x1024
  slices_S8x256x1024_o0_1_0_S8x255x1024 : S8x256x1024.Slices ![0, 1, 0] S8x255x1024
  reduces_S8x255x1024_S8x1024 : S8x255x1024.Reduces [1] S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  bcast_S50_S1x50_1 : S50.BroadcastsInDim S1x50 (![1] : Fin 1 → Fin S1x50.rank)
  bcast_S1x50_S64x50_0_1 : S1x50.BroadcastsInDim S64x50 (![0, 1] : Fin 2 → Fin S64x50.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S50000x512_S64x256x1_S64x256x512_2_0_n_n_0_2_1512_wf : GatherDims.WF S50000x512 S64x256x1 S64x256x512 [2] [0] [] [0] [] 2 ![1, 512]
  dot_S2048x512_S512x1024_S2048x1024_1_0_0_1_n_n_wf : DotDims.WF S2048x512 S512x1024 S2048x1024 [1] [0] [0] [1] [] []
  dot_S64x1024_S50x1024_S64x50_1_1_0_0_n_n_wf : DotDims.WF S64x1024 S50x1024 S64x50 [1] [1] [0] [0] [] []
  dot_S64x50_S2x50_S64x2_1_1_0_0_n_n_wf : DotDims.WF S64x50 S2x50 S64x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S64x1024.size a
  hwx0_4 : ∀ i : grid0.Coords, EltTy.bits .f32 = 32 ∨ (Rect.block (s := S64x1024) S8x1024.size (cc0_transform_4 i) (hinb0_4 i)).WholeWords (EltTy.packing .f32)

variable [Facts₀]

def gather_S50000x512_S64x256x1_S64x256x512_2_0_n_n_0_2_1512 : GatherDims S50000x512 S64x256x1 S64x256x512 where
  offsetDims := [2]
  collapsedSliceDims := [0]
  operandBatchingDims := []
  startIndicesBatchingDims := []
  startIndexMap := [0]
  indexVectorDim := 2
  sliceSizes := ![1, 512]
  wf := gather_S50000x512_S64x256x1_S64x256x512_2_0_n_n_0_2_1512_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S64x1024_S50x1024_S64x50_1_1_0_0_n_n : DotDims S64x1024 S50x1024 S64x50 where
  lhsContracting := [1]
  rhsContracting := [1]
  lhsNonContracting := [0]
  rhsNonContracting := [0]
  lhsBatch := []
  rhsBatch := []
  wf := dot_S64x1024_S50x1024_S64x50_1_1_0_0_n_n_wf
def dot_S64x50_S2x50_S64x2_1_1_0_0_n_n : DotDims S64x50 S2x50 S64x2 where
  lhsContracting := [1]
  rhsContracting := [1]
  lhsNonContracting := [0]
  rhsNonContracting := [0]
  lhsBatch := []
  rhsBatch := []
  wf := dot_S64x50_S2x50_S64x2_1_1_0_0_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256 : Shape := ⟨2, ![64, 256]⟩
abbrev S50000x512 : Shape := ⟨2, ![50000, 512]⟩
abbrev S1024x1024 : Shape := ⟨2, ![1024, 1024]⟩
abbrev S1024 : Shape := ⟨1, ![1024]⟩
abbrev S50x1024 : Shape := ⟨2, ![50, 1024]⟩
abbrev S50 : Shape := ⟨1, ![50]⟩
abbrev S2x50 : Shape := ⟨2, ![2, 50]⟩
abbrev S2 : Shape := ⟨1, ![2]⟩
abbrev S_ : Shape := ⟨0, ![]⟩
abbrev S64x256x1 : Shape := ⟨3, ![64, 256, 1]⟩
abbrev S64x256x512 : Shape := ⟨3, ![64, 256, 512]⟩
abbrev S64x255x512 : Shape := ⟨3, ![64, 255, 512]⟩
abbrev S64x255x1024 : Shape := ⟨3, ![64, 255, 1024]⟩
abbrev S1x1x1024 : Shape := ⟨3, ![1, 1, 1024]⟩
abbrev S64x1024 : Shape := ⟨2, ![64, 1024]⟩
abbrev S64x50 : Shape := ⟨2, ![64, 50]⟩
abbrev S1x50 : Shape := ⟨2, ![1, 50]⟩
abbrev S64x2 : Shape := ⟨2, ![64, 2]⟩
abbrev S1x2 : Shape := ⟨2, ![1, 2]⟩
abbrev S64 : Shape := ⟨1, ![64]⟩
abbrev S64x1 : Shape := ⟨2, ![64, 1]⟩

abbrev nBuf : Space → Nat
  | .hbm => 57
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S50000x512, .f32⟩
  | .hbm, ⟨2, _⟩ => ⟨S1024x1024, .f32⟩
  | .hbm, ⟨3, _⟩ => ⟨S1024, .f32⟩
  | .hbm, ⟨4, _⟩ => ⟨S50x1024, .f32⟩
  | .hbm, ⟨5, _⟩ => ⟨S50, .f32⟩
  | .hbm, ⟨6, _⟩ => ⟨S2x50, .f32⟩
  | .hbm, ⟨7, _⟩ => ⟨S2, .f32⟩
  | .hbm, ⟨8, _⟩ => ⟨S_, .i32⟩
  | .hbm, ⟨9, _⟩ => ⟨S64x256, .i32⟩
  | .hbm, ⟨10, _⟩ => ⟨S64x256, .i1⟩
  | .hbm, ⟨11, _⟩ => ⟨S_, .i32⟩
  | .hbm, ⟨12, _⟩ => ⟨S64x256, .i32⟩
  | .hbm, ⟨13, _⟩ => ⟨S64x256, .i32⟩
  | .hbm, ⟨14, _⟩ => ⟨S64x256, .i32⟩
  | .hbm, ⟨15, _⟩ => ⟨S64x256x1, .i32⟩
  | .hbm, ⟨16, _⟩ => ⟨S64x256x512, .f32⟩
  | .hbm, ⟨17, _⟩ => ⟨S64x255x512, .f32⟩
  | .hbm, ⟨18, _⟩ => ⟨S64x255x512, .f32⟩
  | .hbm, ⟨19, _⟩ => ⟨S64x255x1024, .f32⟩
  | .hbm, ⟨20, _⟩ => ⟨S64x255x1024, .f32⟩
  | .hbm, ⟨21, _⟩ => ⟨S1x1x1024, .f32⟩
  | .hbm, ⟨22, _⟩ => ⟨S64x255x1024, .f32⟩
  | .hbm, ⟨23, _⟩ => ⟨S64x255x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S_, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S64x1024, .f32⟩
  | .hbm, ⟨33, _⟩ => ⟨S64x1024, .f32⟩
  | .hbm, ⟨34, _⟩ => ⟨S64x50, .f32⟩
  | .hbm, ⟨35, _⟩ => ⟨S1x50, .f32⟩
  | .hbm, ⟨36, _⟩ => ⟨S64x50, .f32⟩
  | .hbm, ⟨37, _⟩ => ⟨S64x50, .f32⟩
  | .hbm, ⟨38, _⟩ => ⟨S64x2, .f32⟩
  | .hbm, ⟨39, _⟩ => ⟨S1x2, .f32⟩
  | .hbm, ⟨40, _⟩ => ⟨S64x2, .f32⟩
  | .hbm, ⟨41, _⟩ => ⟨S64x2, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64x1, .f32⟩
  | .hbm, ⟨48, _⟩ => ⟨S64x2, .f32⟩
  | .hbm, ⟨49, _⟩ => ⟨S64x2, .f32⟩
  | .hbm, ⟨50, _⟩ => ⟨S64x2, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S64x1, .f32⟩
  | .hbm, ⟨55, _⟩ => ⟨S64x2, .f32⟩
  | .hbm, ⟨56, _⟩ => ⟨S64x2, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_call0_cst_0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_cst_1 : Ref sig .tc := ⟨.hbm, 51, rfl⟩
abbrev main_call0_v7 : Ref sig .tc := ⟨.hbm, 52, rfl⟩
abbrev main_call0_v8 : Ref sig .tc := ⟨.hbm, 53, rfl⟩
abbrev main_call0_v9 : Ref sig .tc := ⟨.hbm, 54, rfl⟩
abbrev main_call0_v10 : Ref sig .tc := ⟨.hbm, 55, rfl⟩
abbrev main_v29 : Ref sig .tc := ⟨.hbm, 56, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  slices_S64x256x512_S64x255x512_0_0_0 : S64x256x512.Slices ![0, 0, 0] S64x255x512
  slices_S64x256x512_S64x255x512_0_1_0 : S64x256x512.Slices ![0, 1, 0] S64x255x512
  concatenates_S64x255x512_S64x255x512_S64x255x1024_d2 : Shape.Concatenates [S64x255x512, S64x255x512] S64x255x1024 2
  bcast_S1024_S1x1x1024_2 : S1024.BroadcastsInDim S1x1x1024 (![2] : Fin 1 → Fin S1x1x1024.rank)
  bcast_S1x1x1024_S64x255x1024_0_1_2 : S1x1x1024.BroadcastsInDim S64x255x1024 (![0, 1, 2] : Fin 3 → Fin S64x255x1024.rank)
  reducesTo_S64x255x1024_S64x1024_d1 : S64x255x1024.ReducesTo [1] S64x1024
  h_S_ : 0 < S_.numel
  bcast_S_S64x1024 : S_.BroadcastsInDim S64x1024 (![] : Fin 0 → Fin S64x1024.rank)
  bcast_S50_S1x50_1 : S50.BroadcastsInDim S1x50 (![1] : Fin 1 → Fin S1x50.rank)
  bcast_S1x50_S64x50_0_1 : S1x50.BroadcastsInDim S64x50 (![0, 1] : Fin 2 → Fin S64x50.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S50000x512_S64x256x1_S64x256x512_2_0_n_n_0_2_1512_wf : GatherDims.WF S50000x512 S64x256x1 S64x256x512 [2] [0] [] [0] [] 2 ![1, 512]
  dot_S64x255x1024_S1024x1024_S64x255x1024_2_1_01_0_n_n_wf : DotDims.WF S64x255x1024 S1024x1024 S64x255x1024 [2] [1] [0, 1] [0] [] []
  dot_S64x1024_S50x1024_S64x50_1_1_0_0_n_n_wf : DotDims.WF S64x1024 S50x1024 S64x50 [1] [1] [0] [0] [] []
  dot_S64x50_S2x50_S64x2_1_1_0_0_n_n_wf : DotDims.WF S64x50 S2x50 S64x2 [1] [1] [0] [0] [] []

variable [Facts₀]

def gather_S50000x512_S64x256x1_S64x256x512_2_0_n_n_0_2_1512 : GatherDims S50000x512 S64x256x1 S64x256x512 where
  offsetDims := [2]
  collapsedSliceDims := [0]
  operandBatchingDims := []
  startIndicesBatchingDims := []
  startIndexMap := [0]
  indexVectorDim := 2
  sliceSizes := ![1, 512]
  wf := gather_S50000x512_S64x256x1_S64x256x512_2_0_n_n_0_2_1512_wf
def dot_S64x255x1024_S1024x1024_S64x255x1024_2_1_01_0_n_n : DotDims S64x255x1024 S1024x1024 S64x255x1024 where
  lhsContracting := [2]
  rhsContracting := [1]
  lhsNonContracting := [0, 1]
  rhsNonContracting := [0]
  lhsBatch := []
  rhsBatch := []
  wf := dot_S64x255x1024_S1024x1024_S64x255x1024_2_1_01_0_n_n_wf
def dot_S64x1024_S50x1024_S64x50_1_1_0_0_n_n : DotDims S64x1024 S50x1024 S64x50 where
  lhsContracting := [1]
  rhsContracting := [1]
  lhsNonContracting := [0]
  rhsNonContracting := [0]
  lhsBatch := []
  rhsBatch := []
  wf := dot_S64x1024_S50x1024_S64x50_1_1_0_0_n_n_wf
def dot_S64x50_S2x50_S64x2_1_1_0_0_n_n : DotDims S64x50 S2x50 S64x2 where
  lhsContracting := [1]
  rhsContracting := [1]
  lhsNonContracting := [0]
  rhsNonContracting := [0]
  lhsBatch := []
  rhsBatch := []
  wf := dot_S64x50_S2x50_S64x2_1_1_0_0_n_n_wf

class Facts : Prop extends Facts₀ where

variable [Facts]
-- ==== Proof.KernelPay.lean ====
/-
  What the kernel body computes for one batch tile, read at one element. The body holds eight batch entries of 256
  positions each as 2048 consecutive rows x0 of 512 numbers, and the two halves of the convolution weights as two
  512 by 1024 matrices wt (first half) and wb (second half). It multiplies the rows by each matrix, regroups the 2048
  product rows as 8 entries by 256 positions, adds position l of the first product to position l + 1 of the second
  (255 windows), takes the largest window per entry and channel, adds the bias row and applies the logistic function.
-/
import proofs.«168764_j60790967108169_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Sent

open Idealize.ShloMosaic Idealize.ShloMosaic.ValueIdx Cert.KernelIdeal Cert.KernelIdeal.Gen

/-- The 32-bit pattern of minus infinity is the bottom of the extended reals. -/
theorem ofBits_bot_f32 : Ideal.ofBits .f32 0xFF800000#32 = ⊥ := by simp [Ideal.ofBits, Ideal.ieee]

/-- The left operand's index at output (R, s) and contraction index q: row R, the contraction's coordinate. -/
theorem prod_lhs_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
theorem prod_lhs_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
/-- The right operand's index: the contraction's coordinate, channel s. -/
theorem prod_rhs_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem prod_rhs_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl

/-- One matrix product into a zero accumulator, at row R and channel s: the sum over the 512 inputs of the row's
    entry times the matrix's entry. -/
theorem prod_apply (x : FVec Ideal S2048x512 .bf16) (w : FVec Ideal S512x1024 .bf16) (R : Fin 2048) (s : Fin 1024) :
    matmul dot_S2048x512_S512x1024_S2048x1024_1_0_0_1_n_n none x w (constant (F := Ideal) S2048x1024 .f32 0x00000000#32) (ix2 R s)
      = ∑ e : Fin 512, x (ix2 R e) * w (ix2 e s) := by
  simp only [matmul]
  rw [Ideal.matmul_constant_zero_apply,
    ← Equiv.sum_comp (contrEquiv1 dot_S2048x512_S512x1024_S2048x1024_1_0_0_1_n_n 512 rfl rfl).symm]
  refine Finset.sum_congr rfl fun e _ => ?_
  have hk := contrEquiv1_symm_val dot_S2048x512_S512x1024_S2048x1024_1_0_0_1_n_n 512 rfl rfl e
  have el : dot_S2048x512_S512x1024_S2048x1024_1_0_0_1_n_n.lhsIdx (ix2 R s)
      ((contrEquiv1 dot_S2048x512_S512x1024_S2048x1024_1_0_0_1_n_n 512 rfl rfl).symm e) = ix2 R e :=
    funext fun a => Fin.ext (by
      match a with
      | ⟨0, _⟩ => exact prod_lhs_0 _ _
      | ⟨1, _⟩ => exact (prod_lhs_1 _ _).trans hk)
  have er : dot_S2048x512_S512x1024_S2048x1024_1_0_0_1_n_n.rhsIdx (ix2 R s)
      ((contrEquiv1 dot_S2048x512_S512x1024_S2048x1024_1_0_0_1_n_n 512 rfl rfl).symm e) = ix2 e s :=
    funext fun a => Fin.ext (by
      match a with
      | ⟨0, _⟩ => exact (prod_rhs_0 _ _).trans hk
      | ⟨1, _⟩ => exact prod_rhs_1 _ _)
  rw [el, er]

/-- Regrouping 2048 rows as 8 entries of 256 positions: entry p, position r is row 256 p + r. -/
theorem regroup_apply (v : FVec Ideal S2048x1024 .f32) (p : Fin 8) (r : Fin 256) (s : Fin 1024) :
    shapeCast S8x256x1024 v shapeCasts_S2048x1024_S8x256x1024 (ix3 p r s)
      = v (ix2 (⟨p.val * 256 + r.val, by have := p.isLt; have := r.isLt; omega⟩ : Fin 2048) s) := by
  refine shapeCast_apply v _ (ix3 p r s) _ ?_
  rw [Shape.rowMajor_val_two, Shape.rowMajor_val_three]
  rfl

/-- The first 255 positions of each entry. -/
theorem head_apply (v : FVec Ideal S8x256x1024 .f32) (p : Fin 8) (l : Fin 255) (s : Fin 1024) :
    extractStridedSlice S8x255x1024 ![0, 0, 0] v slices_S8x256x1024_o0_0_0_S8x255x1024 (ix3 p l s)
      = v (ix3 p (⟨l.val, by omega⟩ : Fin 256) s) := by
  refine extractStridedSlice_apply ![0, 0, 0] v _ (ix3 p l s) _ (fun a => ?_)
  match a with
  | ⟨0, _⟩ => show p.val = 0 + p.val; omega
  | ⟨1, _⟩ => show l.val = 0 + l.val; omega
  | ⟨2, _⟩ => show s.val = 0 + s.val; omega

/-- The last 255 positions of each entry: position l of the slice is position l + 1. -/
theorem tail_apply (v : FVec Ideal S8x256x1024 .f32) (p : Fin 8) (l : Fin 255) (s : Fin 1024) :
    extractStridedSlice S8x255x1024 ![0, 1, 0] v slices_S8x256x1024_o0_1_0_S8x255x1024 (ix3 p l s)
      = v (ix3 p (⟨l.val + 1, by omega⟩ : Fin 256) s) := by
  refine extractStridedSlice_apply ![0, 1, 0] v _ (ix3 p l s) _ (fun a => ?_)
  match a with
  | ⟨0, _⟩ => show p.val = 0 + p.val; omega
  | ⟨1, _⟩ => show l.val + 1 = 1 + l.val; omega
  | ⟨2, _⟩ => show s.val = 0 + s.val; omega

/-- The bias row repeated for each of the eight entries. -/
theorem bias_apply (v : FVec Ideal S1x1024 .f32) (p : Fin 8) (s : Fin 1024) :
    broadcastTo S8x1024 v broadcasts_S1x1024_S8x1024 (ix2 p s) = v (ix2 (0 : Fin 1) s) := by
  refine broadcastTo_apply v _ (ix2 p s) _ (fun a => ?_)
  match a with
  | ⟨0, _⟩ => show (0 : Nat) = if (1 : Nat) = 1 then 0 else p.val; rw [if_pos rfl]
  | ⟨1, _⟩ => show s.val = if (1024 : Nat) = 1 then 0 else s.val; rw [if_neg (by decide)]

/-- The logistic function of a vector, element by element. -/
theorem logistic_apply {s : Shape} {φ : FTy} (a : FVec Ideal s φ) (i : s.Idx) : logistic a i = Ideal.logistic (a i) := rfl

/-- The window sum the body forms for entry p, window l and channel s, over the rows and the two weight halves. -/
def tileWindow (x0 : FVec Ideal S2048x512 .bf16) (wt wb : FVec Ideal S512x1024 .bf16) (p : Fin 8) (s : Fin 1024) (l : Fin 255) : EReal :=
  (∑ e : Fin 512, x0 (ix2 (⟨p.val * 256 + l.val, by have := p.isLt; omega⟩ : Fin 2048) e) * wt (ix2 e s))
    + ∑ e : Fin 512, x0 (ix2 (⟨p.val * 256 + (l.val + 1), by have := p.isLt; omega⟩ : Fin 2048) e) * wb (ix2 e s)

set_option backward.isDefEq.respectTransparency.types false in
/-- THE BODY AT AN ELEMENT: entry p of the tile at channel s is the logistic function of the largest window sum,
    started from the bottom, plus the bias. -/
theorem pay_apply (x0 : FVec Ideal S2048x512 .bf16) (wt wb : FVec Ideal S512x1024 .bf16) (bias : FVec Ideal S1x1024 .f32)
    (p : Fin 8) (s : Fin 1024) :
    k0_pay1 (F := Ideal) x0 wt wb bias (ix2 p s)
      = Ideal.logistic ((Finset.univ : Finset (Fin 255)).fold max ⊥ (tileWindow x0 wt wb p s) + bias (ix2 (0 : Fin 1) s)) := by
  unfold k0_pay1
  simp only [shapeCast_self]
  rw [logistic_apply, addf_apply, bias_apply, Ideal.multiReduction_maximumf_single]
  show Ideal.logistic ((Finset.univ : Finset (Fin 255)).fold max (Ideal.ofBits .f32 0xFF800000#32) _ + _) = _
  rw [ofBits_bot_f32]
  refine congrArg (fun z => Ideal.logistic (z + bias (ix2 (0 : Fin 1) s))) (Finset.fold_congr fun l _ => ?_)
  have hl : reduces_S8x255x1024_S8x1024.lift (ix2 p s) l = ix3 p l s :=
    funext fun a => Fin.ext (by match a with | ⟨0, _⟩ => rfl | ⟨1, _⟩ => rfl | ⟨2, _⟩ => rfl)
  rw [Function.comp_apply, hl, addf_apply, head_apply, tail_apply, regroup_apply, regroup_apply, prod_apply, prod_apply]
  rfl

end Cert.Sent

end
-- ==== Proof.KernelPrefix.lean ====
/-
  What the region finds in the arrays its four input windows stage, as functions of the program's arguments, and each
  read at one element. The 2048-row blocks come from the gathered embedding rows (batch entry b, position r) laid out
  as row 256 b + r of a 16384 by 512 array; the two weight matrices are the first and the second 512 columns of the
  convolution weights, transposed; the bias row is the bias as a 1 by 1024 array. Narrowing to sixteen bits changes no
  value over the extended reals.
-/
import proofs.«168764_j60790967108169_2_alg».proof.Proof.Gen.KernelIdeal.Frame
import Idealize.ShloMosaic.Lib.Pipeline.Value
import Idealize.ShloMosaic.Lib.ValueIdx
import Idealize.ShloMosaic.Lib.StableHlo.Run

noncomputable section

namespace Cert.Sent

open Idealize.ShloMosaic Idealize.ShloMosaic.TcCoe Idealize.ShloMosaic.ValueIdx Idealize.SL.Sem
open Cert.KernelIdeal Cert.KernelIdeal.Gen

/-- The gathered embedding rows: for each batch entry and position, the table's row at that token, a negative token
    counted from the table's end. -/
def gathered (tok : (⟨S64x256, .i32⟩ : BufTy).Contents (Elt Ideal)) (tab : (⟨S50000x512, .f32⟩ : BufTy).Contents (Elt Ideal)) :
    FVec Ideal S64x256x512 .f32 :=
  Host.gather gather_S50000x512_S64x256x1_S64x256x512_2_0_n_n_0_2_1512 tab
    (broadcastInDim S64x256x1 ![0, 1] bcast_S64x256_S64x256x1_0_1
      (select (cmpi .slt tok (broadcastInDim S64x256 ![] bcast_S_S64x256 (constantI S_ 32 0#32)))
        (addi tok (broadcastInDim S64x256 ![] bcast_S_S64x256 (constantI S_ 32 50000#32))) tok))

/-- The rows array: the gathered rows, narrowed, batch entry and position merged into one row number. -/
def rowsOf (E : FVec Ideal S64x256x512 .f32) : FVec Ideal S16384x512 .bf16 :=
  shapeCast S16384x512 (truncf (F := Ideal) .bf16 E bitsLt_bf16_f32) shapeCasts_S64x256x512_S16384x512

/-- The first half of the weights, transposed and narrowed. -/
def topOf (Wc : FVec Ideal S1024x1024 .f32) : FVec Ideal S512x1024 .bf16 :=
  truncf (F := Ideal) .bf16 (transpose S512x1024 [1, 0] (extractStridedSlice S1024x512 ![0, 0] Wc slices_S1024x1024_S1024x512_0_0)
    transposes_S1024x512_S512x1024_1_0) bitsLt_bf16_f32

/-- The second half of the weights, transposed and narrowed. -/
def botOf (Wc : FVec Ideal S1024x1024 .f32) : FVec Ideal S512x1024 .bf16 :=
  truncf (F := Ideal) .bf16 (transpose S512x1024 [1, 0] (extractStridedSlice S1024x512 ![0, 512] Wc slices_S1024x1024_S1024x512_0_512)
    transposes_S1024x512_S512x1024_1_0) bitsLt_bf16_f32

/-- The bias as a one-row array. -/
def biasOf (bc : FVec Ideal S1024 .f32) : FVec Ideal S1x1024 .f32 :=
  shapeCast S1x1024 bc shapeCasts_S1024_S1x1024

variable (m : (ℓ : Loc nD τ sig) → Buf (Elt Ideal) ℓ)

/-! ## The arrays as the region finds them -/

theorem V_rows (c : Dev nD) : V m c main_v8
    = rowsOf (gathered (m ((c : Thread nD τ).loc main_arg0)) (m ((c : Thread nD τ).loc main_arg1))) := by
  show StableHlo.after hostOps0 (fun b => m (c, b)) (Proc.devRef .tc main_v8) = _
  after_results
  rfl

theorem V_top (c : Dev nD) : V m c main_v11 = topOf (m ((c : Thread nD τ).loc main_arg2)) := by
  show StableHlo.after hostOps0 (fun b => m (c, b)) (Proc.devRef .tc main_v11) = _
  after_results
  rfl

theorem V_bot (c : Dev nD) : V m c main_v14 = botOf (m ((c : Thread nD τ).loc main_arg2)) := by
  show StableHlo.after hostOps0 (fun b => m (c, b)) (Proc.devRef .tc main_v14) = _
  after_results
  rfl

theorem V_bias (c : Dev nD) : V m c main_v15 = biasOf (m ((c : Thread nD τ).loc main_arg3)) := by
  show StableHlo.after hostOps0 (fun b => m (c, b)) (Proc.devRef .tc main_v15) = _
  after_results
  rfl

/-! ## Each read at an element -/

/-- Row 256 b + r of the rows array, at input e, is the gathered row of entry b, position r, at e. -/
theorem rowsOf_apply (E : FVec Ideal S64x256x512 .f32) (b : Fin 64) (r : Fin 256) (e : Fin 512)
    (k : S16384x512.Idx) (hk0 : (k 0).val = b.val * 256 + r.val) (hk1 : (k 1).val = e.val) :
    rowsOf E k = E (ix3 b r e) := by
  unfold rowsOf
  refine (shapeCast_apply _ shapeCasts_S64x256x512_S16384x512 k (ix3 b r e) ?_).trans rfl
  rw [Shape.rowMajor_val_three, Shape.rowMajor_val_two]
  show (b.val * 256 + r.val) * 512 + e.val = (k 0).val * 512 + (k 1).val
  rw [hk0, hk1]

/-- Entry (e, s) of the first weight matrix is the weights' entry (s, e). -/
theorem topOf_apply (Wc : FVec Ideal S1024x1024 .f32) (e : Fin 512) (s : Fin 1024)
    (y : S512x1024.Idx) (hy0 : (y 0).val = e.val) (hy1 : (y 1).val = s.val) :
    topOf Wc y = Wc (ix2 s (⟨e.val, by omega⟩ : Fin 1024)) := by
  unfold topOf
  refine (truncf_apply (ψ := .bf16) _ bitsLt_bf16_f32 y).trans ?_
  refine (transpose_apply [1, 0] _ transposes_S1024x512_S512x1024_1_0 y (ix2 s e) (fun b => ?_)).trans ?_
  · match b with
    | ⟨0, _⟩ => exact hy0.symm
    | ⟨1, _⟩ => exact hy1.symm
  · refine extractStridedSlice_apply ![0, 0] Wc _ (ix2 s e) _ (fun a => ?_)
    match a with
    | ⟨0, _⟩ => show s.val = 0 + s.val; omega
    | ⟨1, _⟩ => show e.val = 0 + e.val; omega

/-- Entry (e, s) of the second weight matrix is the weights' entry (s, 512 + e). -/
theorem botOf_apply (Wc : FVec Ideal S1024x1024 .f32) (e : Fin 512) (s : Fin 1024)
    (y : S512x1024.Idx) (hy0 : (y 0).val = e.val) (hy1 : (y 1).val = s.val) :
    botOf Wc y = Wc (ix2 s (⟨512 + e.val, by omega⟩ : Fin 1024)) := by
  unfold botOf
  refine (truncf_apply (ψ := .bf16) _ bitsLt_bf16_f32 y).trans ?_
  refine (transpose_apply [1, 0] _ transposes_S1024x512_S512x1024_1_0 y (ix2 s e) (fun b => ?_)).trans ?_
  · match b with
    | ⟨0, _⟩ => exact hy0.symm
    | ⟨1, _⟩ => exact hy1.symm
  · refine extractStridedSlice_apply ![0, 512] Wc _ (ix2 s e) _ (fun a => ?_)
    match a with
    | ⟨0, _⟩ => show s.val = 0 + s.val; omega
    | ⟨1, _⟩ => show 512 + e.val = 512 + e.val; rfl

/-- The bias row at channel s is the bias at s. -/
theorem biasOf_apply (bc : FVec Ideal S1024 .f32) (s : Fin 1024) (y : S1x1024.Idx)
    (hy1 : (y 1).val = s.val) : biasOf bc y = bc (ix1 s) := by
  unfold biasOf
  refine shapeCast_apply bc shapeCasts_S1024_S1x1024 y (ix1 s) ?_
  rw [Shape.rowMajor_val_one, Shape.rowMajor_val_two]
  have h0 : (y 0).val < 1 := (y 0).isLt
  show s.val = (y 0).val * 1024 + (y 1).val
  omega

end Cert.Sent

end
-- ==== Proof.SentSpec.lean ====
/-
  The sentence feature both programs compute, as one function of the gathered embedding rows E (one row of 512
  numbers per batch entry and position), the convolution weights Wc (1024 output channels by 2 * 512 inputs) and the
  bias bc. A window of two neighbouring positions l, l + 1 contributes, to channel s, the sum of the products of
  row l with the first half of the weights' row s plus the sum of the products of row l + 1 with its second half; the
  feature is the logistic function of the largest such contribution over the 255 windows, shifted by the bias.
-/
import Idealize.ShloMosaic.PureOps.Ideal
import Idealize.ShloMosaic.Lib.ValueIdx

noncomputable section

namespace Cert.Sent

open Idealize.ShloMosaic Idealize.ShloMosaic.ValueIdx

/-- Window l of batch entry b seen by channel s: row l against the first half of the weights' row s,
    plus row l + 1 against its second half. -/
def windowAt (E : (⟨3, ![64, 256, 512]⟩ : Shape).Idx → EReal) (Wc : (⟨2, ![1024, 1024]⟩ : Shape).Idx → EReal)
    (b : Fin 64) (s : Fin 1024) (l : Fin 255) : EReal :=
  (∑ e : Fin 512, E (ix3 b (⟨l.val, by omega⟩ : Fin 256) e) * Wc (ix2 s (⟨e.val, by omega⟩ : Fin 1024)))
    + ∑ e : Fin 512, E (ix3 b (⟨l.val + 1, by omega⟩ : Fin 256) e) * Wc (ix2 s (⟨512 + e.val, by omega⟩ : Fin 1024))

/-- The feature of batch entry b at channel s: the logistic function of the largest window contribution plus the
    channel's bias. The maximum is taken from the bottom of the extended reals, as both programs start it. -/
def sentAt (E : (⟨3, ![64, 256, 512]⟩ : Shape).Idx → EReal) (Wc : (⟨2, ![1024, 1024]⟩ : Shape).Idx → EReal)
    (bc : (⟨1, ![1024]⟩ : Shape).Idx → EReal) (b : Fin 64) (s : Fin 1024) : EReal :=
  Ideal.logistic ((Finset.univ : Finset (Fin 255)).fold max ⊥ (windowAt E Wc b s) + bc (ix1 s))

/-- The whole feature array, 64 batch entries by 1024 channels. -/
def sent (E : (⟨3, ![64, 256, 512]⟩ : Shape).Idx → EReal) (Wc : (⟨2, ![1024, 1024]⟩ : Shape).Idx → EReal)
    (bc : (⟨1, ![1024]⟩ : Shape).Idx → EReal) : (⟨2, ![64, 1024]⟩ : Shape).Idx → EReal :=
  fun i => sentAt E Wc bc (i 0) (i 1)

end Cert.Sent

end
-- ==== Proof.KernelArr.lean ====
/-
  From the blocks the grid points write to the whole feature array. Grid point t stages rows 2048 t .. 2048 t + 2047
  of the rows array (batch entries 8 t .. 8 t + 7, 256 positions each) and the whole of the two weight matrices and of
  the bias row, and writes back rows 8 t .. 8 t + 7 of the 64 by 1024 output. So what point t writes at (p, s) is the
  sentence feature of batch entry 8 t + p at channel s, the eight points' blocks tile the output, and the output array
  ends as the sentence-feature function of the gathered rows, the weights and the bias.
-/
import proofs.«168764_j60790967108169_2_alg».proof.Proof.KernelPay
import proofs.«168764_j60790967108169_2_alg».proof.Proof.KernelPrefix
import proofs.«168764_j60790967108169_2_alg».proof.Proof.SentSpec

noncomputable section

namespace Cert.Sent

open Idealize.ShloMosaic Idealize.ShloMosaic.TcCoe Idealize.ShloMosaic.ValueIdx Idealize.SL.Sem
open Cert.KernelIdeal Cert.KernelIdeal.Gen
open Idealize.ShloMosaic.Pipeline (Dat)

/-! ## One grid point, over variables -/

/-- Entry p of tile tv is one of the 64 batch entries. -/
theorem entry_lt (tv : Nat) (htv : tv < 8) (p : Fin 8) : 8 * tv + p.val < 64 := by
  have := p.isLt; omega

/-- If a tile's rows are the gathered rows of batch entries 8 tv .. 8 tv + 7, its two matrices the two halves of the
    weights transposed and its bias row the bias, then the body's result at (p, s) is the sentence feature of entry
    8 tv + p at channel s. -/
theorem point_eq (E : (⟨3, ![64, 256, 512]⟩ : Shape).Idx → EReal) (Wc : (⟨2, ![1024, 1024]⟩ : Shape).Idx → EReal)
    (bc : (⟨1, ![1024]⟩ : Shape).Idx → EReal)
    (x0 : FVec Ideal S2048x512 .bf16) (wt wb : FVec Ideal S512x1024 .bf16) (bias : FVec Ideal S1x1024 .f32)
    (tv : Nat) (htv : tv < 8)
    (h0 : ∀ (p : Fin 8) (r : Fin 256) (e : Fin 512) (x : S2048x512.Idx), (x 0).val = p.val * 256 + r.val → (x 1).val = e.val →
      x0 x = E (ix3 (⟨8 * tv + p.val, by have := p.isLt; omega⟩ : Fin 64) r e))
    (h1 : ∀ (e : Fin 512) (s : Fin 1024) (x : S512x1024.Idx), (x 0).val = e.val → (x 1).val = s.val →
      wt x = Wc (ix2 s (⟨e.val, by omega⟩ : Fin 1024)))
    (h2 : ∀ (e : Fin 512) (s : Fin 1024) (x : S512x1024.Idx), (x 0).val = e.val → (x 1).val = s.val →
      wb x = Wc (ix2 s (⟨512 + e.val, by omega⟩ : Fin 1024)))
    (h3 : ∀ (s : Fin 1024) (x : S1x1024.Idx), (x 1).val = s.val → bias x = bc (ix1 s))
    (y : S8x1024.Idx) (i : Fin 64) (s' : Fin 1024) (hi : i.val = 8 * tv + (y 0).val) (hs : s'.val = (y 1).val) :
    k0_pay1 (F := Ideal) x0 wt wb bias y = sentAt E Wc bc i s' := by
  obtain ⟨p, s, rfl⟩ : ∃ (p : Fin 8) (s : Fin 1024), y = ix2 p s := ⟨y 0, y 1, eq_ix2 y⟩
  obtain rfl : i = (⟨8 * tv + p.val, entry_lt tv htv p⟩ : Fin 64) := Fin.ext hi
  obtain rfl : s' = s := Fin.ext hs
  rw [pay_apply, h3 s' (ix2 (0 : Fin 1) s') rfl]
  unfold sentAt
  refine congrArg (fun z => Ideal.logistic (z + bc (ix1 s'))) (Finset.fold_congr fun l _ => ?_)
  unfold tileWindow windowAt
  refine congrArg₂ (· + ·) (Finset.sum_congr rfl fun e _ => ?_) (Finset.sum_congr rfl fun e _ => ?_)
  · rw [h0 p (⟨l.val, by omega⟩ : Fin 256) e _ rfl rfl, h1 e s' _ rfl rfl]
  · rw [h0 p (⟨l.val + 1, by omega⟩ : Fin 256) e _ rfl rfl, h2 e s' _ rfl rfl]

/-! ## The windows' blocks, read -/

variable (m : (ℓ : Loc nD τ sig) → Buf (Elt Ideal) ℓ)

theorem hz : (![0, 0] : Fin 2 → Nat) = fun _ => 0 := funext fun a => by fin_cases a <;> rfl

/-- A grid point is one of eight. -/
theorem point_lt (t : Fin cfg0.N) : t.val < 8 := by
  exact lt_of_lt_of_eq t.isLt N_0

/-- The printed index maps over the grid: the rows window and the output window move one block per point along
    the rows; the weights and the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The gathered rows, the weights and the bias of core c's arguments. -/
abbrev rowsArg (c : Dev nD) : FVec Ideal S64x256x512 .f32 :=
  gathered (m ((c : Thread nD τ).loc main_arg0)) (m ((c : Thread nD τ).loc main_arg1))
abbrev weightsArg (c : Dev nD) : FVec Ideal S1024x1024 .f32 := m ((c : Thread nD τ).loc main_arg2)
abbrev biasArg (c : Dev nD) : FVec Ideal S1024 .f32 := m ((c : Thread nD τ).loc main_arg3)

/-- The rows window's block at point t: row 256 p + r is the gathered row of entry 8 t + p, position r. -/
theorem rows_blk (c : Dev nD) (t : Fin cfg0.N) (p : Fin 8) (r : Fin 256) (e : Fin 512) (x : S2048x512.Idx)
    (hx0 : (x 0).val = p.val * 256 + r.val) (hx1 : (x 1).val = e.val) :
    (iblk m c 0 t : Vec Ideal S2048x512 .bf16) x
      = rowsArg m c (ix3 (⟨8 * t.val + p.val, by have := point_lt t; have := p.isLt; omega⟩ : Fin 64) r e) := by
  obtain ⟨h00, h01, -⟩ := idx_facts t
  unfold iblk
  rw [View.read_apply]
  show V m c main_v8 _ = _
  rw [V_rows]
  refine rowsOf_apply _ _ r e _ ?_ ?_
  · show win0_0.index t (0 : Fin 2) * 2048 + 1 * (x 0).val = (8 * t.val + p.val) * 256 + r.val
    rw [h00, hx0]; omega
  · show win0_0.index t (1 : Fin 2) * 512 + 1 * (x 1).val = e.val
    rw [h01, hx1]; omega

/-- The first weight matrix's block is the whole matrix. -/
theorem top_blk (c : Dev nD) (t : Fin cfg0.N) (e : Fin 512) (s : Fin 1024) (x : S512x1024.Idx)
    (hx0 : (x 0).val = e.val) (hx1 : (x 1).val = s.val) :
    (iblk m c 1 t : Vec Ideal S512x1024 .bf16) x = weightsArg m c (ix2 s (⟨e.val, by omega⟩ : Fin 1024)) := by
  obtain ⟨-, -, h10, h11, -⟩ := idx_facts t
  unfold iblk
  rw [View.read_apply]
  show V m c main_v11 _ = _
  rw [V_top]
  refine topOf_apply _ e s _ ?_ ?_
  · show win0_1.index t (0 : Fin 2) * 512 + 1 * (x 0).val = e.val
    rw [h10, hx0]; omega
  · show win0_1.index t (1 : Fin 2) * 1024 + 1 * (x 1).val = s.val
    rw [h11, hx1]; omega

/-- The second weight matrix's block is the whole matrix. -/
theorem bot_blk (c : Dev nD) (t : Fin cfg0.N) (e : Fin 512) (s : Fin 1024) (x : S512x1024.Idx)
    (hx0 : (x 0).val = e.val) (hx1 : (x 1).val = s.val) :
    (iblk m c 2 t : Vec Ideal S512x1024 .bf16) x = weightsArg m c (ix2 s (⟨512 + e.val, by omega⟩ : Fin 1024)) := by
  obtain ⟨-, -, -, -, h20, h21, -⟩ := idx_facts t
  unfold iblk
  rw [View.read_apply]
  show V m c main_v14 _ = _
  rw [V_bot]
  refine botOf_apply _ e s _ ?_ ?_
  · show win0_2.index t (0 : Fin 2) * 512 + 1 * (x 0).val = e.val
    rw [h20, hx0]; omega
  · show win0_2.index t (1 : Fin 2) * 1024 + 1 * (x 1).val = s.val
    rw [h21, hx1]; omega

/-- The bias row's block is the whole row. -/
theorem bias_blk (c : Dev nD) (t : Fin cfg0.N) (s : Fin 1024) (x : S1x1024.Idx) (hx1 : (x 1).val = s.val) :
    (iblk m c 3 t : Vec Ideal S1x1024 .f32) x = biasArg m c (ix1 s) := by
  obtain ⟨-, -, -, -, -, -, h30, h31, -⟩ := idx_facts t
  unfold iblk
  rw [View.read_apply]
  show V m c main_v15 _ = _
  rw [V_bias]
  refine biasOf_apply _ s _ ?_
  show win0_3.index t (1 : Fin 2) * 1024 + 1 * (x 1).val = s.val
  rw [h31, hx1]; omega

/-! ## What a point writes back, the cover, the array -/

/-- The feature array of core c's arguments. -/
abbrev sentArg (c : Dev nD) : FVec Ideal S64x1024 .f32 := sent (rowsArg m c) (weightsArg m c) (biasArg m c)

/-- WHAT POINT t WRITES BACK is block t of the feature array. -/
theorem flushed_eq (c : Dev nD) (t : Fin cfg0.N) :
    (dats m 0 c).flushed 4 t = ((cfg0.win 4).blk t).view.read (Elt Ideal) (sentArg m c) := by
  show (cfg0.win 4).cut (grid0.coords t) ((dats m 0 c).after 4 t) = _
  rw [after0_4]
  unfold out0_4
  rw [View.canon_unit_zero hz]
  simp only [View.ld_unit_zero (S := S2048x512) hz, View.ld_unit_zero (S := S512x1024) hz, View.ld_unit_zero (S := S1x1024) hz]
  obtain ⟨-, -, -, -, -, -, -, -, h40, h41⟩ := idx_facts t
  funext j
  rw [View.read_apply]
  show k0_pay1 (F := Ideal) (iblk m c 0 t) (iblk m c 1 t) (iblk m c 2 t) (iblk m c 3 t) j
    = sentAt (rowsArg m c) (weightsArg m c) (biasArg m c) ((((cfg0.win 4).blk t).view.emb j) 0) ((((cfg0.win 4).blk t).view.emb j) 1)
  exact point_eq (rowsArg m c) (weightsArg m c) (biasArg m c) (iblk m c 0 t) (iblk m c 1 t) (iblk m c 2 t) (iblk m c 3 t)
    t.val (point_lt t) (fun p r e x => rows_blk m c t p r e x) (fun e s x => top_blk m c t e s x) (fun e s x => bot_blk m c t e s x)
    (fun s x => bias_blk m c t s x) j _ _
    (by show win0_4.index t (0 : Fin 2) * 8 + 1 * (j 0).val = 8 * t.val + (j 0).val; rw [h40]; omega)
    (by show win0_4.index t (1 : Fin 2) * 1024 + 1 * (j 1).val = (j 1).val; rw [h41]; omega)

/-- An index of the output array is in point t's block iff each coordinate is in the block's range on its axis. -/
theorem mem_blk (t : Fin cfg0.N) (i : S64x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v16).slice (win0_4.rect t)).set ↔ _
  rw [View.set_slice_whole, Rect.mem_set_unit]
  exact Iff.rfl

/-- Every entry of the output is in the block of the point that is its row divided by eight. -/
theorem cover (i : S64x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  let t : Fin cfg0.N := ⟨(i 0).val / 8, by rw [show cfg0.N = 8 from N_0]; omega⟩
  obtain ⟨-, -, -, -, -, -, -, -, h40, h41⟩ := idx_facts t
  have ht : t.val = (i 0).val / 8 := rfl
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; rw [h40, ht]; omega
  | ⟨1, _⟩ => show win0_4.index t (1 : Fin 2) * 1024 ≤ (i 1).val ∧ (i 1).val < win0_4.index t (1 : Fin 2) * 1024 + 1024; rw [h41]; omega

/-- THE OUTPUT ARRAY after the run is the feature array. -/
theorem final_sent (c : Dev nD) : (dats m 0 c).arrAt 4 cfg0.N = sentArg m c :=
  (dats m 0 c).arrAt_eq_of_cover 4 (sentArg m c) (fun t _ => flushed_eq m c t) cover

end Cert.Sent

end
-- ==== Proof.LibHostFold.lean ====
/-
  The contents a device's buffers hold after a line of host operations is a left fold of the operations' results over the
  contents it started from; so the fold over a concatenation is the fold over the second line, started from the fold over
  the first. This lets a long host program be read stretch by stretch, each from the contents the one before left.
-/
import Idealize.ShloMosaic.Lib.StableHlo.Run

namespace Idealize.ShloMosaic.StableHlo

variable {nD : Nat} {τ : Topo} {sig : RefSig} {Val : EltTy → Type}

/-- The fold over `l₁ ++ l₂` is the fold over `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.KernelTail.lean ====
/-
  The lines both programs run after the sentence features: the classifier (two affine layers, 1024 to 50 to 2) and the
  log-softmax of the two logits per batch entry. They are carried as ONE function of the feature array and the four
  classifier arguments and never opened: the two programs apply the same function, so equal features give equal results.
  Here: that function, and the kernel program's result buffer as that function of what the region left in its output
  array.
-/
import proofs.«168764_j60790967108169_2_alg».proof.Proof.Gen.KernelIdeal.Frame
import Idealize.ShloMosaic.Lib.StableHlo.Run
import Idealize.ShloMosaic.PureOps.Ideal
import proofs.«168764_j60790967108169_2_alg».proof.Proof.LibHostFold

noncomputable section

namespace Cert.Sent

open Idealize.ShloMosaic Idealize.ShloMosaic.TcCoe Idealize.SL.Sem
open Cert.KernelIdeal Cert.KernelIdeal.Gen

/-- The two logits of each batch entry: features times the first layer plus its bias, times the second layer plus its
    bias. -/
def logitsOf (sentv : FVec Ideal S64x1024 .f32) (W1 : FVec Ideal S50x1024 .f32) (b1 : FVec Ideal S50 .f32)
    (W2 : FVec Ideal S2x50 .f32) (b2 : FVec Ideal S2 .f32) : FVec Ideal S64x2 .f32 :=
  addf (Host.dotGeneral (F := Ideal) dot_S64x50_S2x50_S64x2_1_1_0_0_n_n none
      (addf (Host.dotGeneral (F := Ideal) dot_S64x1024_S50x1024_S64x50_1_1_0_0_n_n none sentv W1)
        (broadcastInDim S64x50 ![0, 1] bcast_S1x50_S64x50_0_1 (broadcastInDim S1x50 ![1] bcast_S50_S1x50_1 b1))) W2)
    (broadcastInDim S64x2 ![0, 1] bcast_S1x2_S64x2_0_1 (broadcastInDim S1x2 ![1] bcast_S2_S1x2_1 b2))

/-- The logits of an entry less their larger one. -/
def shiftOf (x : FVec Ideal S64x2 .f32) : FVec Ideal S64x2 .f32 :=
  subf x (broadcastInDim S64x2 ![0, 1] bcast_S64x1_S64x2_0_1 (broadcastInDim S64x1 ![0] bcast_S64_S64x1_0
    (maximumf (broadcastInDim S64 ![] bcast_S_S64 (constant (F := Ideal) S_ .f32 0xFF800000#32))
      (Host.reduce (FloatOps.maximumf (F := Ideal)) x (constant (F := Ideal) S_ .f32 0xFF800000#32) reducesTo_S64x2_S64_d1 h_S_))))

/-- The log-softmax over the two logits of each entry. -/
def logSoftmaxOf (x : FVec Ideal S64x2 .f32) : FVec Ideal S64x2 .f32 :=
  subf (shiftOf x) (broadcastInDim S64x2 ![0, 1] bcast_S64x1_S64x2_0_1 (Host.log (F := Ideal) (broadcastInDim S64x1 ![0] bcast_S64_S64x1_0
    (Host.reduceAdd (F := Ideal) (Host.exp (F := Ideal) (shiftOf x)) (constant (F := Ideal) S_ .f32 0x00000000#32) reducesTo_S64x2_S64_d1 h_S_))))

/-- THE SHARED TAIL: the classifier's log-probabilities from the sentence features. -/
def tail (sentv : FVec Ideal S64x1024 .f32) (W1 : FVec Ideal S50x1024 .f32) (b1 : FVec Ideal S50 .f32)
    (W2 : FVec Ideal S2x50 .f32) (b2 : FVec Ideal S2 .f32) : FVec Ideal S64x2 .f32 :=
  logSoftmaxOf (logitsOf sentv W1 b1 W2 b2)

theorem tail_congr {s s' : FVec Ideal S64x1024 .f32} {W1 W1' : FVec Ideal S50x1024 .f32} {b1 b1' : FVec Ideal S50 .f32}
    {W2 W2' : FVec Ideal S2x50 .f32} {b2 b2' : FVec Ideal S2 .f32} (h0 : s = s') (h1 : W1 = W1') (h2 : b1 = b1') (h3 : W2 = W2')
    (h4 : b2 = b2') : tail s W1 b1 W2 b2 = tail s' W1' b1' W2' b2' := by
  subst h0 h1 h2 h3 h4; rfl

/-- From any buffer contents, the classifier's lines leave the logits of the region's output buffer and the four
    classifier arguments as found. -/
theorem head_after (Wv : Valuation τ sig (Elt Ideal)) :
    StableHlo.after hostOps1 Wv (Proc.devRef .tc main_v24)
      = logitsOf (Wv (Proc.devRef .tc main_v16)) (Wv (Proc.devRef .tc main_arg4)) (Wv (Proc.devRef .tc main_arg5))
          (Wv (Proc.devRef .tc main_arg6)) (Wv (Proc.devRef .tc main_arg7)) := by
  simp only [hostOps1]
  after_results
  rfl

set_option maxHeartbeats 1000000 in
/-- From any buffer contents, the log-softmax's lines leave the log-softmax of the logits as found. -/
theorem softmax_after (Wv : Valuation τ sig (Elt Ideal)) :
    StableHlo.after hostOps1_1 Wv (Proc.devRef .tc main_v25) = logSoftmaxOf (Wv (Proc.devRef .tc main_v24)) := by
  simp only [hostOps1_1]
  after_results_simp
  rfl

/-- From any buffer contents, the lines after the region leave in the result buffer the tail of the region's output
    buffer and the four classifier arguments as found: the second stretch runs from what the first leaves. -/
theorem tail_after (Wv : Valuation τ sig (Elt Ideal)) :
    StableHlo.after (List.flatten [hostOps1, hostOps1_1]) Wv (Proc.devRef .tc main_v25)
      = tail (Wv (Proc.devRef .tc main_v16)) (Wv (Proc.devRef .tc main_arg4)) (Wv (Proc.devRef .tc main_arg5))
          (Wv (Proc.devRef .tc main_arg6)) (Wv (Proc.devRef .tc main_arg7)) := by
  rw [show List.flatten [hostOps1 (F := Ideal), hostOps1_1] = hostOps1 ++ hostOps1_1 from by
    simp only [List.flatten_cons, List.flatten_nil, List.append_nil]]
  rw [StableHlo.after_append, softmax_after, head_after]
  rfl

variable (m : (ℓ : Loc nD τ sig) → Buf (Elt Ideal) ℓ)

/-- THE KERNEL PROGRAM'S RESULT: the tail of what the region left in its output array, and of the arguments. -/
theorem tail_kernel (c : Dev nD) :
    Pipeline.afterTail₀ cfgs (dats m) 0 (V0 m) [hostOps1, hostOps1_1] c main_v25
      = tail ((dats m 0 c).arrAt 4 cfg0.N) (m ((c : Thread nD τ).loc main_arg4)) (m ((c : Thread nD τ).loc main_arg5))
          (m ((c : Thread nD τ).loc main_arg6)) (m ((c : Thread nD τ).loc main_arg7)) := by
  unfold Pipeline.afterTail₀
  refine (tail_after _).trans (tail_congr ?_ ?_ ?_ ?_ ?_)
  · exact Pipeline.withArrays_arr spec0 launch0.win.arr_inj c _ _ 4
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)
  · exact (Pipeline.withArrays_of_ne _ c (V0 m c) _ main_arg6 (by exact (by decide : ∀ w, Pipeline.arrRef spec0 w ≠ main_arg6))).trans (V_main_arg6 m c)
  · exact (Pipeline.withArrays_of_ne _ c (V0 m c) _ main_arg7 (by exact (by decide : ∀ w, Pipeline.arrRef spec0 w ≠ main_arg7))).trans (V_main_arg7 m c)

end Cert.Sent

end
-- ==== Proof.RefSent.lean ====
/-
  The reference program's sentence feature is the function Cert.Sent.sent of the gathered embedding rows, the
  convolution weights and the bias.

  At (b, s) the reference computes 1 / (1 + exp (-M)) with M the maximum, started from the bottom of the extended
  reals, over the 255 windows l of ( ∑ k < 1024, cat (b, l, k) * Wc (s, k) ) + bc s, where cat (b, l, ·) is the gathered
  row (b, l) followed by the gathered row (b, l + 1): two slices of the gathered rows, at offsets 0 and 1 on the
  position axis, joined on the last axis. Three laws carry this to sentAt, none of them needing a finite operand:
  a sum over 1024 = 512 + 512 indices is the sum over the first half plus the sum over the second half; x ↦ x + c
  preserves max and fixes ⊥ on the extended reals, so it commutes with a maximum started from ⊥; and the logistic
  function is by definition 1 / (1 + exp (-x)). The gather itself stays opaque: both sides read the same gathered rows.
-/
import proofs.«168764_j60790967108169_2_alg».proof.Proof.Gen.ReferenceIdeal.Read
import proofs.«168764_j60790967108169_2_alg».proof.Proof.SentSpec
import Idealize.ShloMosaic.PureOps.Ideal.Laws
import Idealize.ShloMosaic.Lib.Pipeline.Value
import Idealize.ShloMosaic.Lib.IdealHost

noncomputable section

namespace Cert.Sent

open Idealize.ShloMosaic Idealize.ShloMosaic.ValueIdx Cert.ReferenceIdeal Cert.ReferenceIdeal.Gen Cert.ReferenceIdeal.Read

/-- Adding a constant commutes with a maximum started from the bottom of the extended reals: x ↦ x + c is monotone,
    so it preserves max, and ⊥ + c = ⊥. -/
theorem fold_max_bot_add {ι : Type} (S : Finset ι) (f : ι → EReal) (c : EReal) :
    S.fold max ⊥ (fun l => f l + c) = S.fold max ⊥ f + c := by
  have hm : ∀ x y : EReal, max x y + c = max (x + c) (y + c) := fun x y =>
    (max_add_add_right x y c).symm
  have h := Finset.fold_hom (op := max) (op' := max) (b := (⊥ : EReal)) (f := f) (s := S) (m := fun x => x + c) hm
  rw [EReal.bot_add] at h
  exact h

/-- The f32 pattern of negative infinity is the bottom of the extended reals. -/
theorem ofBits_neg_inf_f32 : Ideal.ofBits .f32 0xFF800000#32 = ⊥ := by
  simp [Ideal.ofBits, Ideal.ieee]

/-- A sum over 1024 = 512 + 512 indices is the sum over the first 512 plus the sum over the last 512. -/
theorem sum_split_halves (f : Fin 1024 → EReal) :
    ∑ k : Fin 1024, f k
      = (∑ e : Fin 512, f (⟨e.val, by omega⟩ : Fin 1024)) + ∑ e : Fin 512, f (⟨512 + e.val, by omega⟩ : Fin 1024) :=
  Fin.sum_univ_add (a := 512) (b := 512) f

/-- The two slices of the gathered rows joined on the last axis, read at (b, l, k) with k in the first half:
    the gathered row (b, l) at k. -/
theorem v9_left (x0 : (⟨S64x256, .i32⟩ : BufTy).Contents (Elt Ideal)) (x1 : (⟨S50000x512, .f32⟩ : BufTy).Contents (Elt Ideal))
    (b : Fin 64) (l : Fin 255) (e : Fin 512) :
    val_main_v9 (F := Ideal) x0 x1 (ix3 b l (⟨e.val, by omega⟩ : Fin 1024))
      = val_main_v6 (F := Ideal) x0 x1 (ix3 b (⟨l.val, by omega⟩ : Fin 256) e) := by
  unfold val_main_v9
  rw [concatenate_pair_apply_left (t := S64x255x1024) (s₁ := S64x255x512) (s₂ := S64x255x512) (2 : Fin S64x255x1024.rank) _ _ _ _ rfl (ix3 b l e)
    (fun c => by match c with | ⟨0, _⟩ => rfl | ⟨1, _⟩ => rfl | ⟨2, _⟩ => rfl)]
  rw [val_main_v7_apply]
  congr 1
  funext a
  apply Fin.ext
  match a with
  | ⟨0, _⟩ => rfl
  | ⟨1, _⟩ => rfl
  | ⟨2, _⟩ => rfl

/-- The same at (b, l, 512 + e): the gathered row (b, l + 1) at e. -/
theorem v9_right (x0 : (⟨S64x256, .i32⟩ : BufTy).Contents (Elt Ideal)) (x1 : (⟨S50000x512, .f32⟩ : BufTy).Contents (Elt Ideal))
    (b : Fin 64) (l : Fin 255) (e : Fin 512) :
    val_main_v9 (F := Ideal) x0 x1 (ix3 b l (⟨512 + e.val, by omega⟩ : Fin 1024))
      = val_main_v6 (F := Ideal) x0 x1 (ix3 b (⟨l.val + 1, by omega⟩ : Fin 256) e) := by
  unfold val_main_v9
  rw [concatenate_pair_apply_right (t := S64x255x1024) (s₁ := S64x255x512) (s₂ := S64x255x512) (2 : Fin S64x255x1024.rank) _ _ _ _ rfl rfl (ix3 b l e)
    (fun c hc => by
      match c with
      | ⟨0, _⟩ => rfl
      | ⟨1, _⟩ => rfl
      | ⟨2, _⟩ => exact absurd rfl hc)
    (by show e.val + 512 = 512 + e.val; omega)]
  rw [val_main_v8_apply]
  congr 1
  funext a
  apply Fin.ext
  match a with
  | ⟨0, _⟩ => rfl
  | ⟨1, _⟩ => show 1 + l.val = l.val + 1; omega
  | ⟨2, _⟩ => rfl

/-- The contraction of the joined rows with the weights at (b, l, s) is window l's contribution to channel s:
    the sum over the 1024 joined positions splits into the two halves, each read back to a gathered row. -/
theorem v10_window (x0 : (⟨S64x256, .i32⟩ : BufTy).Contents (Elt Ideal)) (x1 : (⟨S50000x512, .f32⟩ : BufTy).Contents (Elt Ideal))
    (x2 : (⟨S1024x1024, .f32⟩ : BufTy).Contents (Elt Ideal)) (b : Fin 64) (l : Fin 255) (s : Fin 1024) :
    val_main_v10 (F := Ideal) x0 x1 x2 (ix3 b l s) = windowAt (val_main_v6 (F := Ideal) x0 x1) x2 b s l := by
  rw [val_main_v10_apply, sum_split_halves]
  unfold windowAt
  have hl : ∀ k : Fin 1024, lidx_main_v10 (ix3 b l s) k = ix3 b l k := fun k =>
    funext fun a => Fin.ext (by
      match a with
      | ⟨0, _⟩ => rfl
      | ⟨1, _⟩ => rfl
      | ⟨2, _⟩ => rfl)
  have hr : ∀ k : Fin 1024, ridx_main_v10 (ix3 b l s) k = ix2 s k := fun k =>
    funext fun a => Fin.ext (by
      match a with
      | ⟨0, _⟩ => rfl
      | ⟨1, _⟩ => rfl)
  refine congrArg₂ (· + ·) (Finset.sum_congr rfl fun e _ => ?_) (Finset.sum_congr rfl fun e _ => ?_)
  · beta_reduce
    rw [hl, hr, v9_left]
  · beta_reduce
    rw [hl, hr, v9_right]

/-- The maximum over the windows, as the reference takes it: at (b, s) the reduction over the position axis of the
    contraction plus the bias is the largest window contribution, from the bottom, plus the bias. -/
theorem v14_max (x0 : (⟨S64x256, .i32⟩ : BufTy).Contents (Elt Ideal)) (x1 : (⟨S50000x512, .f32⟩ : BufTy).Contents (Elt Ideal))
    (x2 : (⟨S1024x1024, .f32⟩ : BufTy).Contents (Elt Ideal)) (x3 : (⟨S1024, .f32⟩ : BufTy).Contents (Elt Ideal))
    (b : Fin 64) (s : Fin 1024) :
    val_main_v14 (F := Ideal) x0 x1 x2 x3 (ix2 b s)
      = (Finset.univ : Finset (Fin 255)).fold max ⊥ (windowAt (val_main_v6 (F := Ideal) x0 x1) x2 b s) + x3 (ix1 s) := by
  have hred : S64x255x1024.Reduces [1] S64x1024 := by decide
  unfold val_main_v14
  rw [Host.reduce_eq_fold_single FloatOps.maximumf _ _ reducesTo_S64x255x1024_S64x1024_d1 hred h_S_]
  rw [← fold_max_bot_add]
  have hinit : val_main_cst (F := Ideal) (Shape.Idx.first h_S_) = (⊥ : EReal) := ofBits_neg_inf_f32
  rw [hinit]
  show (Finset.univ : Finset (Fin 255)).fold max ⊥ _ = _
  refine Finset.fold_congr fun l _ => ?_
  have hlift : hred.lift (ix2 b s) l = ix3 b l s := funext fun c => Fin.ext (by
    match c with
    | ⟨0, _⟩ => rfl
    | ⟨1, _⟩ => rfl
    | ⟨2, _⟩ => rfl)
  show val_main_v13 (F := Ideal) x0 x1 x2 x3 (hred.lift (ix2 b s) l) = _
  rw [hlift, val_main_v13_apply, val_main_v12_apply, val_main_v11_apply, v10_window]
  have hb : idx_main_v11 (idx_main_v12 (ix3 b l s)) = ix1 s := funext fun a => Fin.ext (by
    match a with
    | ⟨0, _⟩ => rfl)
  rw [hb]
  rfl

theorem ref_sent (x0 : (⟨S64x256, .i32⟩ : BufTy).Contents (Elt Ideal)) (x1 : (⟨S50000x512, .f32⟩ : BufTy).Contents (Elt Ideal))
    (x2 : (⟨S1024x1024, .f32⟩ : BufTy).Contents (Elt Ideal)) (x3 : (⟨S1024, .f32⟩ : BufTy).Contents (Elt Ideal)) :
    val_main_v20 (F := Ideal) x0 x1 x2 x3 = sent (val_main_v6 (F := Ideal) x0 x1) x2 x3 := by
  funext i
  obtain ⟨b, s, rfl⟩ : ∃ (b : Fin 64) (s : Fin 1024), i = ix2 b s := ⟨i 0, i 1, eq_ix2 i⟩
  show val_main_v20 (F := Ideal) x0 x1 x2 x3 (ix2 b s) = sentAt (val_main_v6 (F := Ideal) x0 x1) x2 x3 b s
  rw [val_main_v20_apply, val_main_v19_apply, val_main_cst_2_apply, val_main_v18_apply, val_main_v17_apply,
    val_main_cst_1_apply, val_main_v16_apply, val_main_v15_apply, v14_max]
  unfold sentAt Ideal.logistic
  simp only [Ideal.hostDivf_def, Ideal.addf_def, Ideal.hostUnary_exp_def, Ideal.hostNegf_def, Ideal.negf_def,
    Ideal.ofBits_def, Ideal.ofBits_one_f32]

end Cert.Sent

end
-- ==== Proof.Bridge.lean ====
/-
  The two programs end with one result. The kernel program's run leaves, in its result buffer, the shared tail of the
  feature array its region wrote, which is the sentence-feature function of the gathered rows, the weights and the bias.
  The reference's composed result is the same tail of its own feature array, which is the same function of the same
  gathered rows: the gather is the same operation of the same arguments in both programs and is never opened.
-/
import proofs.«168764_j60790967108169_2_alg».proof.Defs
import proofs.«168764_j60790967108169_2_alg».proof.Proof.Gen.Kernel.Frame
import proofs.«168764_j60790967108169_2_alg».proof.Proof.Gen.Pre_finite_inputs
import proofs.«168764_j60790967108169_2_alg».proof.Proof.KernelArr
import proofs.«168764_j60790967108169_2_alg».proof.Proof.KernelTail
import proofs.«168764_j60790967108169_2_alg».proof.Proof.RefSent

noncomputable section

namespace Cert.Sent

open Idealize.ShloMosaic Idealize.ShloMosaic.TcCoe Idealize.SL.Sem

/-! ## The reference's result as the shared tail of its feature array -/

section Reference
open Cert.ReferenceIdeal Cert.ReferenceIdeal.Gen Cert.ReferenceIdeal.Read

/-- The gathered rows are one term in both programs. -/
theorem gathered_eq (x0 : (⟨S64x256, .i32⟩ : BufTy).Contents (Elt Ideal)) (x1 : (⟨S50000x512, .f32⟩ : BufTy).Contents (Elt Ideal)) :
    val_main_v6 (F := Ideal) x0 x1 = gathered x0 x1 := rfl

/-- The reference's last stage is the shared tail of its feature stage and the four classifier arguments. -/
theorem ref_tail (x0 : (⟨S64x256, .i32⟩ : BufTy).Contents (Elt Ideal)) (x1 : (⟨S50000x512, .f32⟩ : BufTy).Contents (Elt Ideal))
    (x2 : (⟨S1024x1024, .f32⟩ : BufTy).Contents (Elt Ideal)) (x3 : (⟨S1024, .f32⟩ : BufTy).Contents (Elt Ideal))
    (x4 : (⟨S50x1024, .f32⟩ : BufTy).Contents (Elt Ideal)) (x5 : (⟨S50, .f32⟩ : BufTy).Contents (Elt Ideal))
    (x6 : (⟨S2x50, .f32⟩ : BufTy).Contents (Elt Ideal)) (x7 : (⟨S2, .f32⟩ : BufTy).Contents (Elt Ideal)) :
    val_main_v29 (F := Ideal) x0 x1 x2 x3 x4 x5 x6 x7 = tail (val_main_v20 (F := Ideal) x0 x1 x2 x3) x4 x5 x6 x7 := by
  unfold val_main_v29 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0
    val_main_call0_cst val_main_v28 val_main_v27 val_main_v26 val_main_v25 val_main_v24 val_main_v23 val_main_v22 val_main_v21
  rfl

end Reference

/-! ## The kernel program's run, read -/

section Kernel
open Cert.KernelIdeal Cert.KernelIdeal.Gen

variable (m : (ℓ : Loc nD τ sig) → Buf (Elt Ideal) ℓ) (ρ : Dev nD → PrngReg)

/-- The result both programs end with, on core c: the shared tail of the feature array of the arguments. -/
abbrev result (c : Dev nD) : Buf (Elt Ideal) ((c.tc : Thread nD τ).loc main_v25) :=
  tail (sentArg m c) (m ((c : Thread nD τ).loc main_arg4)) (m ((c : Thread nD τ).loc main_arg5))
    (m ((c : Thread nD τ).loc main_arg6)) (m ((c : Thread nD τ).loc main_arg7))

/-- Every weakly fair execution of the idealized kernel program ends with its result buffer at that result and its
    arguments unchanged. -/
theorem kernel_run : θ_run defs (onTc (τ := τ) (main (F := Ideal))) ⟨m, fun _ => 0, ρ⟩ (fun r => ∀ c : Dev nD,
      r.2.mem ((c.tc : Thread nD τ).loc main_v25) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v25 (Pipeline.mem_restRefs_of main_v25 (by decide) (by decide))).trans
        ((tail_kernel m c).trans (tail_congr (final_sent m c) rfl rfl rfl rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Kernel

end Cert.Sent

/-! ## The claims -/

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the arguments both idealized programs end with the shared tail of one feature array:
    the kernel's region writes it block by block, the reference computes it whole, and the two are one function of
    the gathered rows, the weights and the bias. -/
theorem algebraic : Cert.algebraic_KernelIdeal_ReferenceIdeal := by
  intro m ρ m' ρ' _ hagree
  refine ⟨fun c => Cert.Sent.result m c, Cert.Sent.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Sent.ref_tail, Cert.Sent.ref_sent, Cert.Sent.gathered_eq]
  obtain ⟨a0, a1, a2, a3, a4, a5, a6, a7⟩ := hagree c
  rw [a0, a1, a2, a3, a4, a5, a6, a7]

end Cert.Proof.Claims

end
-- ==== Proof.lean ====
/- The proof of Cert.Claim for this kernel and its reference.
   Both programs gather embedding rows, score every window of two neighbouring positions against the convolution
   weights, take the largest score per batch entry and channel, add the bias, apply the logistic function, and pass the
   resulting sentence features through the same classifier and log-softmax. The kernel splits each window's sum over
   the 1024 inputs into the two halves it multiplies separately, and adds the bias after the maximum where the reference
   adds it before: over the extended reals the first is a regrouping of one sum, and the second holds because adding a
   constant preserves the order and fixes the bottom from which both maxima start. Neither law needs finite operands,
   so the precondition is never opened. The modules: SentSpec (the feature as one function), KernelPay (the body at an
   element), KernelPrefix (the arrays the region finds), KernelArr (blocks to the array), KernelTail (the shared lines
   after the region), RefSent (the reference's feature is that function), Bridge (the two runs and the claims). -/
import proofs.«168764_j60790967108169_2_alg».proof.Defs
import proofs.«168764_j60790967108169_2_alg».proof.Proof.Gen.Kernel
import proofs.«168764_j60790967108169_2_alg».proof.Proof.Gen.Kernel.Skeleton
import proofs.«168764_j60790967108169_2_alg».proof.Proof.Gen.Kernel.Launch
import proofs.«168764_j60790967108169_2_alg».proof.Proof.Gen.Kernel.Points
import proofs.«168764_j60790967108169_2_alg».proof.Proof.Gen.Kernel.Frame
import proofs.«168764_j60790967108169_2_alg».proof.Proof.Gen.KernelIdeal
import proofs.«168764_j60790967108169_2_alg».proof.Proof.Gen.KernelIdeal.Skeleton
import proofs.«168764_j60790967108169_2_alg».proof.Proof.Gen.KernelIdeal.Launch
import proofs.«168764_j60790967108169_2_alg».proof.Proof.Gen.KernelIdeal.Points
import proofs.«168764_j60790967108169_2_alg».proof.Proof.Gen.KernelIdeal.Frame
import proofs.«168764_j60790967108169_2_alg».proof.Proof.Gen.ReferenceIdeal
import proofs.«168764_j60790967108169_2_alg».proof.Proof.Gen.ReferenceIdeal.Run
import proofs.«168764_j60790967108169_2_alg».proof.Proof.Gen.ReferenceIdeal.Read
import proofs.«168764_j60790967108169_2_alg».proof.Proof.Gen.Pre_finite_inputs
import proofs.«168764_j60790967108169_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
